-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_4000000" .f32 0x348637BD#32 ((1 / 4000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S4000000 : Shape := ⟨1, ![4000000]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S4000000x5 .f32) (main_arg1 : FVec F S4000000x5 .f32) (main_arg2 : FVec F S4000000 .f32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  let main_v4 : FVec F S4000000x5 .f32 := Host.absf main_arg1
  let main_cst_0 : FVec F S_ .f32 := constant S_ .f32 0x7F800000#32
  let main_v5 : FVec F S4000000x5 .f32 := broadcastInDim S4000000x5 ![] bcast_S_S4000000x5 main_cst_0
  let main_v6 : IVec S4000000x5 1 := cmpf .olt main_v4 main_v5
  let main_c_1 : IVec S_ 1 := constantI S_ 1 1#1
  let main_v7 : IVec S_ 1 := (fun x v => Host.reduce IntOp.andi x v reducesTo_S4000000x5_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S4000000x5 : Shape := ⟨2, ![4000000, 5]⟩
abbrev S4000000 : Shape := ⟨1, ![4000000]⟩
abbrev S1x1 : Shape := ⟨2, ![1, 1]⟩
abbrev S3200x5 : Shape := ⟨2, ![3200, 5]⟩
abbrev S3200 : Shape := ⟨1, ![3200]⟩
abbrev S_ : Shape := ⟨0, ![]⟩
abbrev S3200x1 : Shape := ⟨2, ![3200, 1]⟩
abbrev S25x128 : Shape := ⟨2, ![25, 128]⟩
abbrev S128 : Shape := ⟨1, ![128]⟩
abbrev S1x128 : Shape := ⟨2, ![1, 128]⟩
abbrev S1 : Shape := ⟨1, ![1]⟩

abbrev nBuf : Space → Nat
  | .hbm => 5
  | .vmem => 6
  | .smem => 0
  | _ => 0

abbrev bufTy : (tb : Table) → Fin (tcTables nBuf tb) → BufTy
  | .hbm, ⟨0, _⟩ => ⟨S4000000x5, .f32⟩
  | .hbm, ⟨1, _⟩ => ⟨S4000000x5, .f32⟩
  | .hbm, ⟨2, _⟩ => ⟨S4000000, .f32⟩
  | .hbm, ⟨3, _⟩ => ⟨S1x1, .f32⟩
  | .hbm, ⟨4, _⟩ => ⟨S_, .f32⟩
  | .local _ .vmem, ⟨0, _⟩ => ⟨S3200x5, .f32⟩
  | .local _ .vmem, ⟨1, _⟩ => ⟨S3200x5, .f32⟩
  | .local _ .vmem, ⟨2, _⟩ => ⟨S3200x5, .f32⟩
  | .local _ .vmem, ⟨3, _⟩ => ⟨S3200x5, .f32⟩
  | .local _ .vmem, ⟨4, _⟩ => ⟨S1x1, .f32⟩
  | .local _ .vmem, ⟨5, _⟩ => ⟨S3200, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![1250], ![false]⟩

def k0_mult1 (i : grid0.Coords) : BitVec 32 :=
  let arg0 : BitVec 32 := BitVec.ofNat 32 (i 0).val
  let c3200_i32 : BitVec 32 := 3200#32
  let v0 : BitVec 32 := Scalar.muli arg0 c3200_i32
  v0
def k0_off1 (i : grid0.Coords) : Fin 1 → Nat :=
  let arg0 : BitVec 32 := BitVec.ofNat 32 (i 0).val
  let c3200_i32 : BitVec 32 := 3200#32
  let v0 : BitVec 32 := Scalar.muli arg0 c3200_i32
  let v1 : BitVec 32 := v0
  ![v1.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3200x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S3200x5_S3200x5_0_0 : ∀ a, (![0, 0] : Fin 2 → Nat) a + S3200x5.size a ≤ S3200x5.size a
  h_S3200x5 : 0 < S3200x5.numel
  slices_S3200x5_o0_2_S3200x1 : S3200x5.Slices ![0, 2] S3200x1
  shapeCasts_S3200x1_S3200 : S3200x1.ShapeCasts S3200
  slices_S3200x5_o0_3_S3200x1 : S3200x5.Slices ![0, 3] S3200x1
  slices_S3200x5_o0_4_S3200x1 : S3200x5.Slices ![0, 4] S3200x1
  slices_S3200x5_o0_0_S3200x1 : S3200x5.Slices ![0, 0] S3200x1
  slices_S3200x5_o0_1_S3200x1 : S3200x5.Slices ![0, 1] S3200x1
  inb_S3200_S3200_0 : ∀ a, (![0] : Fin 1 → Nat) a + S3200.size a ≤ S3200.size a
  h_S3200 : 0 < S3200.numel
  shapeCasts_S3200_S25x128 : S3200.ShapeCasts S25x128
  reduces_S25x128_S128 : S25x128.Reduces [0] S128
  shapeCasts_S128_S1x128 : S128.ShapeCasts S1x128
  reduces_S1x128_S1 : S1x128.Reduces [1] S1
  shapeCasts_S1_S1x1 : S1.ShapeCasts S1x1
  shapeCasts_S1x1_S1x1 : S1x1.ShapeCasts S1x1
  shapeCasts_S1x1_S_ : S1x1.ShapeCasts S_
  hcc0_scratch1 : 5 + S_.numel ≤ 6
  hrank0 : 0 < grid0.rank
  k0_mult1_dvd : ∀ i : grid0.Coords, 128 ∣ (k0_mult1 i).toNat
  k0_off1_inb : ∀ i : grid0.Coords, ∀ a, (k0_off1 i) a + S3200.size a ≤ S4000000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x5.size a ≤ S4000000x5.size a
  hwx0_0 : ∀ i : grid0.Coords, EltTy.bits .f32 = 32 ∨ (Rect.block (s := S4000000x5) S3200x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x5.size a ≤ S4000000x5.size a
  hwx0_1 : ∀ i : grid0.Coords, EltTy.bits .f32 = 32 ∨ (Rect.block (s := S4000000x5) S3200x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1x1.size a ≤ S1x1.size a
  hwx0_2 : ∀ i : grid0.Coords, EltTy.bits .f32 = 32 ∨ (Rect.block (s := S1x1) S1x1.size (cc0_transform_3 i) (hinb0_2 i)).WholeWords (EltTy.packing .f32)

variable [Facts₀]

abbrev cc0_scratch1 : DmaSems sig S_ := SemArray.consecutive 5 S_ hcc0_scratch1

abbrev win0_0 : Pipeline.Window sig grid0 :=
  Pipeline.Window.ofSpec (Memref.whole main_arg0) S3200x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3200x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_3 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x5 : Shape := ⟨2, ![4000000, 5]⟩
abbrev S4000000 : Shape := ⟨1, ![4000000]⟩
abbrev S4000000x2 : Shape := ⟨2, ![4000000, 2]⟩
abbrev S_ : Shape := ⟨0, ![]⟩
abbrev S4000000x1 : Shape := ⟨2, ![4000000, 1]⟩

abbrev nBuf : Space → Nat
  | .hbm => 152
  | .vmem => 0
  | .smem => 0
  | _ => 0

abbrev hbmTy0_0 (i : Nat) : BufTy := match i % 128 with
  | 0 => ⟨S4000000x5, .f32⟩
  | 1 => ⟨S4000000x5, .f32⟩
  | 2 => ⟨S4000000, .f32⟩
  | 3 => ⟨S4000000x2, .f32⟩
  | 4 => ⟨S4000000x2, .f32⟩
  | 5 => ⟨S4000000x2, .f32⟩
  | 6 => ⟨S_, .f32⟩
  | 7 => ⟨S_, .f32⟩
  | 8 => ⟨S4000000x2, .f32⟩
  | 9 => ⟨S4000000x2, .f32⟩
  | 10 => ⟨S4000000x1, .f32⟩
  | 11 => ⟨S4000000, .f32⟩
  | 12 => ⟨S4000000x1, .f32⟩
  | 13 => ⟨S4000000, .f32⟩
  | 14 => ⟨S4000000, .f32⟩
  | 15 => ⟨S_, .f32⟩
  | 16 => ⟨S4000000, .f32⟩
  | 17 => ⟨S4000000, .f32⟩
  | 18 => ⟨S4000000x1, .f32⟩
  | 19 => ⟨S4000000, .f32⟩
  | 20 => ⟨S4000000, .f32⟩
  | 21 => ⟨S_, .f32⟩
  | 22 => ⟨S4000000, .f32⟩
  | 23 => ⟨S4000000, .f32⟩
  | 24 => ⟨S4000000, .f32⟩
  | 25 => ⟨S4000000, .f32⟩
  | 26 => ⟨S4000000, .f32⟩
  | 27 => ⟨S4000000, .f32⟩
  | 28 => ⟨S4000000, .f32⟩
  | 29 => ⟨S4000000, .f32⟩
  | 30 => ⟨S4000000, .f32⟩
  | 31 => ⟨S4000000, .f32⟩
  | 32 => ⟨S4000000, .f32⟩
  | 33 => ⟨S4000000, .f32⟩
  | 34 => ⟨S4000000, .f32⟩
  | 35 => ⟨S4000000, .f32⟩
  | 36 => ⟨S4000000, .f32⟩
  | 37 => ⟨S4000000, .f32⟩
  | 38 => ⟨S4000000, .f32⟩
  | 39 => ⟨S4000000, .f32⟩
  | 40 => ⟨S4000000, .f32⟩
  | 41 => ⟨S4000000, .f32⟩
  | 42 => ⟨S4000000x2, .f32⟩
  | 43 => ⟨S_, .f32⟩
  | 44 => ⟨S_, .f32⟩
  | 45 => ⟨S4000000x2, .f32⟩
  | 46 => ⟨S4000000x2, .f32⟩
  | 47 => ⟨S4000000x1, .f32⟩
  | 48 => ⟨S4000000, .f32⟩
  | 49 => ⟨S4000000x1, .f32⟩
  | 50 => ⟨S4000000, .f32⟩
  | 51 => ⟨S4000000, .f32⟩
  | 52 => ⟨S_, .f32⟩
  | 53 => ⟨S4000000, .f32⟩
  | 54 => ⟨S4000000, .f32⟩
  | 55 => ⟨S4000000x1, .f32⟩
  | 56 => ⟨S4000000, .f32⟩
  | 57 => ⟨S4000000, .f32⟩
  | 58 => ⟨S_, .f32⟩
  | 59 => ⟨S4000000, .f32⟩
  | 60 => ⟨S4000000, .f32⟩
  | 61 => ⟨S4000000, .f32⟩
  | 62 => ⟨S4000000, .f32⟩
  | 63 => ⟨S4000000, .f32⟩
  | 64 => ⟨S4000000, .f32⟩
  | 65 => ⟨S4000000, .f32⟩
  | 66 => ⟨S4000000, .f32⟩
  | 67 => ⟨S4000000, .f32⟩
  | 68 => ⟨S4000000, .f32⟩
  | 69 => ⟨S4000000, .f32⟩
  | 70 => ⟨S4000000, .f32⟩
  | 71 => ⟨S4000000, .f32⟩
  | 72 => ⟨S4000000, .f32⟩
  | 73 => ⟨S4000000, .f32⟩
  | 74 => ⟨S4000000, .f32⟩
  | 75 => ⟨S4000000, .f32⟩
  | 76 => ⟨S4000000, .f32⟩
  | 77 => ⟨S4000000, .f32⟩
  | 78 => ⟨S4000000, .f32⟩
  | 79 => ⟨S4000000x1, .f32⟩
  | 80 => ⟨S4000000, .f32⟩
  | 81 => ⟨S4000000x1, .f32⟩
  | 82 => ⟨S4000000, .f32⟩
  | 83 => ⟨S4000000, .f32⟩
  | 84 => ⟨S4000000x1, .f32⟩
  | 85 => ⟨S4000000, .f32⟩
  | 86 => ⟨S4000000x1, .f32⟩
  | 87 => ⟨S4000000, .f32⟩
  | 88 => ⟨S4000000, .f32⟩
  | 89 => ⟨S4000000, .f32⟩
  | 90 => ⟨S4000000, .f32⟩
  | 91 => ⟨S_, .f32⟩
  | 92 => ⟨S4000000, .f32⟩
  | 93 => ⟨S4000000, .f32⟩
  | 94 => ⟨S4000000, .f32⟩
  | 95 => ⟨S4000000, .f32⟩
  | 96 => ⟨S4000000, .f32⟩
  | 97 => ⟨S4000000, .f32⟩
  | 98 => ⟨S4000000, .f32⟩
  | 99 => ⟨S4000000, .f32⟩
  | 100 => ⟨S_, .f32⟩
  | 101 => ⟨S4000000, .f32⟩
  | 102 => ⟨S4000000, .f32⟩
  | 103 => ⟨S4000000, .f32⟩
  | 104 => ⟨S4000000, .f32⟩
  | 105 => ⟨S_, .f32⟩
  | 106 => ⟨S4000000, .f32⟩
  | 107 => ⟨S4000000, .f32⟩
  | 108 => ⟨S4000000, .f32⟩
  | 109 => ⟨S4000000, .f32⟩
  | 110 => ⟨S4000000, .f32⟩
  | 111 => ⟨S4000000, .f32⟩
  | 112 => ⟨S_, .f32⟩
  | 113 => ⟨S4000000, .f32⟩
  | 114 => ⟨S4000000, .f32⟩
  | 115 => ⟨S4000000, .f32⟩
  | 116 => ⟨S4000000, .f32⟩
  | 117 => ⟨S4000000, .f32⟩
  | 118 => ⟨S4000000, .f32⟩
  | 119 => ⟨S_, .f32⟩
  | 120 => ⟨S4000000, .f32⟩
  | 121 => ⟨S4000000, .f32⟩
  | 122 => ⟨S4000000, .f32⟩
  | 123 => ⟨S_, .f32⟩
  | 124 => ⟨S4000000, .f32⟩
  | 125 => ⟨S4000000, .f32⟩
  | 126 => ⟨S_, .f32⟩
  | 127 => ⟨S4000000, .f32⟩
  | _ => ⟨S4000000x5, .f32⟩

abbrev hbmTy0_1 (i : Nat) : BufTy := match i % 128 with
  | 0 => ⟨S4000000, .f32⟩
  | 1 => ⟨S4000000, .f32⟩
  | 2 => ⟨S_, .f32⟩
  | 3 => ⟨S_, .f32⟩
  | 4 => ⟨S4000000, .f32⟩
  | 5 => ⟨S4000000, .f32⟩
  | 6 => ⟨S4000000, .f32⟩
  | 7 => ⟨S4000000, .f32⟩
  | 8 => ⟨S_, .f32⟩
  | 9 => ⟨S4000000, .f32⟩
  | 10 => ⟨S4000000, .f32⟩
  | 11 => ⟨S_, .f32⟩
  | 12 => ⟨S4000000, .f32⟩
  | 13 => ⟨S4000000, .f32⟩
  | 14 => ⟨S_, .f32⟩
  | 15 => ⟨S4000000, .f32⟩
  | 16 => ⟨S4000000, .f32⟩
  | 17 => ⟨S4000000, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | _ => ⟨S4000000x5, .f32⟩

abbrev hbmTy (i : Nat) : BufTy := match i / 128 with
  | 0 => hbmTy0_0 i
  | 1 => hbmTy0_1 i
  | _ => ⟨S4000000x5, .f32⟩

abbrev bufTy : (tb : Table) → Fin (tcTables nBuf tb) → BufTy
  | .hbm, ⟨i, _⟩ => hbmTy i
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_call1_v0 : Ref sig .tc := ⟨.hbm, 44, rfl⟩
abbrev main_call1_v1 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_3 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_4 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_5 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_6 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_cst_7 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_8 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_9 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_10 : Ref sig .tc := ⟨.hbm, 123, rfl⟩
abbrev main_v105 : Ref sig .tc := ⟨.hbm, 124, rfl⟩
abbrev main_v106 : Ref sig .tc := ⟨.hbm, 125, rfl⟩
abbrev main_cst_11 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_12 : Ref sig .tc := ⟨.hbm, 130, rfl⟩
abbrev main_call2_v0 : Ref sig .tc := ⟨.hbm, 131, rfl⟩
abbrev main_call2_v1 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_cst_13 : Ref sig .tc := ⟨.hbm, 136, rfl⟩
abbrev main_v113 : Ref sig .tc := ⟨.hbm, 137, rfl⟩
abbrev main_v114 : Ref sig .tc := ⟨.hbm, 138, rfl⟩
abbrev main_cst_14 : Ref sig .tc := ⟨.hbm, 139, rfl⟩
abbrev main_v115 : Ref sig .tc := ⟨.hbm, 140, rfl⟩
abbrev main_v116 : Ref sig .tc := ⟨.hbm, 141, rfl⟩
abbrev main_cst_15 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_cst_16 : Ref sig .tc := ⟨.hbm, 146, rfl⟩
abbrev main_v120 : Ref sig .tc := ⟨.hbm, 147, rfl⟩
abbrev main_cst_17 : Ref sig .tc := ⟨.hbm, 148, rfl⟩
abbrev main_v121 : Ref sig .tc := ⟨.hbm, 149, rfl⟩
abbrev main_cst_18 : Ref sig .tc := ⟨.hbm, 150, rfl⟩
abbrev main_v122 : Ref sig .tc := ⟨.hbm, 151, rfl⟩

abbrev nD : Nat := 1
abbrev τ : Topo := Topo.v7x

variable {F : FTy → Type} [FloatOps F]

class Facts₀ : Prop where
  slices_S4000000x5_S4000000x2_0_0 : S4000000x5.Slices ![0, 0] S4000000x2
  slices_S4000000x5_S4000000x2_0_2 : S4000000x5.Slices ![0, 2] S4000000x2
  bcast_S_S4000000x2 : S_.BroadcastsInDim S4000000x2 (![] : Fin 0 → Fin S4000000x2.rank)
  slices_S4000000x5_S4000000x1_0_4 : S4000000x5.Slices ![0, 4] S4000000x1
  shapeCasts_S4000000x1_S4000000 : S4000000x1.ShapeCasts S4000000
  slices_S4000000x2_S4000000x1_0_0 : S4000000x2.Slices ![0, 0] S4000000x1
  bcast_S_S4000000 : S_.BroadcastsInDim S4000000 (![] : Fin 0 → Fin S4000000.rank)
  slices_S4000000x2_S4000000x1_0_1 : S4000000x2.Slices ![0, 1] S4000000x1
  reducesTo_S4000000_S_d0 : S4000000.ReducesTo [0] S_
  h_S_ : 0 < S_.numel

variable [Facts₀]

class Facts : Prop extends Facts₀ where

variable [Facts]
-- ==== Proof.Pieces.lean ====
/-
  What one grid point's body leaves in the 1 × 1 accumulator block, for each of the three kinds of point.

  At every point the body forms, from the point's 3200 × 5 blocks of the two box arrays and the 3200 weights its own
  copy brought in, the 1 × 1 value  acc + Σ(loss · weight)  (the tile value), where acc is what the accumulator block
  held. At the first point the block is first set to zero, so acc is that zero; at a middle point acc is what the point
  before left; at the last point the tile value is then multiplied by the reciprocal of the number of boxes.
-/
import proofs.«120014_j70609262346548_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F] [Named F]

theorem zeros2 : (![0, 0] : Fin 2 → Nat) = fun _ => 0 := funext fun a => by fin_cases a <;> rfl
theorem zeros1 : (![0] : Fin 1 → Nat) = fun _ => 0 := funext fun a => by fin_cases a; rfl

/-- The tile value: the accumulator block's contents `acc` plus the sum over the tile's 3200 boxes of loss times weight,
    as the body computes it from the two blocks `x0`, `x1` and the weights `w`. -/
def tileVal (x0 x1 : Vec F S3200x5 .f32) (w : Vec F S3200 .f32) (acc : Vec F S1x1 .f32) : FVec F S1x1 .f32 :=
  k0_pay25 (k0_pay8 x0) (k0_pay9 x0) (k0_pay11 x0) (k0_pay20 x1 (k0_pay12 x1) k0_pay13) (k0_pay21 x1 (k0_pay12 x1) k0_pay13)
    (k0_pay22 x1 (k0_pay12 x1) k0_pay13) (k0_pay23 x0 x1 (k0_pay8 x0) (k0_pay9 x0) (k0_pay10 x0) (k0_pay11 x0))
    (k0_pay24 x1 (k0_pay10 x0) (k0_pay12 x1) k0_pay13) w acc

/-- The 3200 weights the body's own copy brings in at grid coordinates `i`: the weight array read through the
    rectangle of 3200 entries at the offset the body computes. -/
def weightsAt (c : Dev nD) (i : grid0.Coords) (fh : HbBuf0 (F := F) c hbM0_0) : Vec F S3200 .f32 :=
  View.read (Elt F) ((Memref.whole main_arg2).slice (Rect.unit (s := S4000000) (k0_off1 i) S3200.size (k0_off1_inb i)) (fun _ => rfl)).view fh

/-- A load through the whole-shape rectangle of a buffer that one store through the whole shape filled reads the
    stored value. -/
theorem readCov_whole {Val : EltTy → Type} [∀ e, Nonempty (Val e)] {sig : RefSig} {κ : Kind} {sp : Space} {S : Shape} {e : EltTy}
    (v : View sig κ sp S e) {off : Fin S.rank → Nat} (h : off = fun _ => 0) (inb : ∀ a, off a + S.size a ≤ S.size a)
    (w : (Rect.whole S).shape.Idx → Val e) :
    v.readCov [(⟨Rect.whole S, w⟩ : View.Piece Val S e)] (Rect.unit off S.size inb).toLoadRect = w := by
  subst h
  exact View.readCov_cons_toLoadRect v (Rect.whole S) w []

/-- A middle point leaves the tile value over what the point before left. -/
theorem out_B (c : Dev nD) (i : grid0.Coords) (a1 : Memref sig .tc .vmem S3200x5 .f32) (h1 : a1.IsWhole)
    (a2 : Memref sig .tc .vmem S3200x5 .f32) (h2 : a2.IsWhole) (a4 : Memref sig .tc .vmem S1x1 .f32) (h4 : a4.IsWhole)
    (a5 : Memref sig .tc .vmem S3200 .f32) (h5 : a5.IsWhole) (hc0 : ¬cond0_0 i) (hc1 : ¬cond0_1 i)
    (x0 x1 : Vec F S3200x5 .f32) (xo : Vec F S1x1 .f32) (fh : HbBuf0 (F := F) c hbM0_0) :
    out0_B_2 c i a1 h1 a2 h2 a4 h4 a5 h5 hc0 hc1 x0 x1 xo fh = tileVal x0 x1 (weightsAt c i fh) xo := by
  unfold out0_B_2
  rw [View.read_writes_eq_canon _ _ _ (cover0_B_2 c i a1 h1 a2 h2 a4 h4 a5 h5 hc0 hc1 x0 x1 xo fh)]
  unfold kernelRun0_B
  dsimp only
  sl_unfold_run_names
  rw [View.canon_unit_zero (S := S1x1) zeros2]
  simp only [View.readAt_eq_ld, h1.read_unread, h2.read_unread, h4.read_unread, View.ld_unit_zero (S := S3200x5) zeros2,
    View.ld_unit_zero (S := S1x1) zeros2, readCov_whole (S := S3200) _ zeros1]
  rfl

/-- The first point sets the block to zero and leaves the tile value over that zero. -/
theorem out_A (c : Dev nD) (i : grid0.Coords) (a1 : Memref sig .tc .vmem S3200x5 .f32) (h1 : a1.IsWhole)
    (a2 : Memref sig .tc .vmem S3200x5 .f32) (h2 : a2.IsWhole) (a4 : Memref sig .tc .vmem S1x1 .f32) (h4 : a4.IsWhole)
    (a5 : Memref sig .tc .vmem S3200 .f32) (h5 : a5.IsWhole) (hc0 : cond0_0 i) (hc1 : ¬cond0_1 i)
    (x0 x1 : Vec F S3200x5 .f32) (fh : HbBuf0 (F := F) c hbM0_0) :
    out0_A_2 c i a1 h1 a2 h2 a4 h4 a5 h5 hc0 hc1 x0 x1 fh = tileVal x0 x1 (weightsAt c i fh) (k0_pay2 (F := F)) := by
  unfold out0_A_2
  rw [View.read_writes_eq_canon _ _ _ (cover0_A_2 c i a1 h1 a2 h2 a4 h4 a5 h5 hc0 hc1 x0 x1 fh)]
  unfold kernelRun0_A
  dsimp only
  sl_unfold_run_names
  rw [View.canon_cons_unit_zero (S := S1x1) zeros2]
  simp only [View.readAt_eq_ld, h1.read_unread, h2.read_unread, View.ld_unit_zero (S := S3200x5) zeros2,
    View.readCov_unit_zero (S := S1x1) _ zeros2, readCov_whole (S := S3200) _ zeros1]
  rfl

/-- The last point leaves the tile value over what the point before left, scaled by the reciprocal of the count. -/
theorem out_C (c : Dev nD) (i : grid0.Coords) (a1 : Memref sig .tc .vmem S3200x5 .f32) (h1 : a1.IsWhole)
    (a2 : Memref sig .tc .vmem S3200x5 .f32) (h2 : a2.IsWhole) (a4 : Memref sig .tc .vmem S1x1 .f32) (h4 : a4.IsWhole)
    (a5 : Memref sig .tc .vmem S3200 .f32) (h5 : a5.IsWhole) (hc0 : ¬cond0_0 i) (hc1 : cond0_1 i)
    (x0 x1 : Vec F S3200x5 .f32) (xo : Vec F S1x1 .f32) (fh : HbBuf0 (F := F) c hbM0_0) :
    out0_C_2 c i a1 h1 a2 h2 a4 h4 a5 h5 hc0 hc1 x0 x1 xo fh = k0_pay1 (tileVal x0 x1 (weightsAt c i fh) xo) := by
  unfold out0_C_2
  rw [View.read_writes_eq_canon _ _ _ (cover0_C_2 c i a1 h1 a2 h2 a4 h4 a5 h5 hc0 hc1 x0 x1 xo fh)]
  unfold kernelRun0_C
  dsimp only
  sl_unfold_run_names
  rw [View.canon_cons_unit_zero (S := S1x1) zeros2]
  simp only [View.readAt_eq_ld, h1.read_unread, h2.read_unread, h4.read_unread, View.ld_unit_zero (S := S3200x5) zeros2,
    View.ld_unit_zero (S := S1x1) zeros2, View.readCov_unit_zero (S := S1x1) _ zeros2, readCov_whole (S := S3200) _ zeros1]
  rfl

end Cert.KernelIdeal.Tile

end
-- ==== Proof.RowLoss.lean ====
/-
  The loss of one pair of rotated boxes, as a function on the extended reals, and the two ways a mean of N of them is
  taken.

  A box is (x, y, w, h, θ). Its covariance is Σ = R(θ) · diag(w/2, h/2)² · R(θ)ᵀ = [[a, b], [b, d]] with
  a = w₂c² + h₂s², b = (w₂ - h₂)sc, d = w₂s² + h₂c², where w₂ = ¼·max(ε, w)², h₂ = ¼·max(ε, h)², c = cos θ, s = sin θ,
  and det = ad - b². For a predicted box p and a target box t the distance is
  ½(Δx²·d_p - 2ΔxΔy·b_p + Δy²·a_p)/det_p + ½(d_p a_t - 2 b_p b_t + a_p d_t)/det_p + ½(log det_p - log det_t) - 1,
  and the loss is 1 - 1/(1 + log(1 + √max(0, distance))). Every operation is the exact one on the extended reals
  (Ideal.div, Ideal.log, … with their conventions at the corners); the float literals stay as their words.
-/
import Idealize.ShloMosaic.PureOps.Ideal
import Idealize.ShloMosaic.PureOps.Ideal.Laws

noncomputable section

namespace Cert.BoxLoss

open Idealize.ShloMosaic

/-- The float literals of the computation, as the extended reals their words denote. -/
abbrev eps : EReal := Ideal.ofBits .f32 0x33D6BF95#32
abbrev quarter : EReal := Ideal.ofBits .f32 0x3E800000#32
abbrev two : EReal := Ideal.ofBits .f32 0x40000000#32
abbrev half : EReal := Ideal.ofBits .f32 0x3F000000#32
abbrev one : EReal := Ideal.ofBits .f32 0x3F800000#32
abbrev zero : EReal := Ideal.ofBits .f32 0x00000000#32

/-- ¼·max(ε, w)², multiplied from the left: (¼·W)·W. -/
def sq4 (w : EReal) : EReal := quarter * max eps w * max eps w

/-- The same with the square taken first, ¼·(W·W): one number, multiplication being associative. -/
theorem sq4_eq (w : EReal) : quarter * (max eps w * max eps w) = sq4 w := (mul_assoc _ _ _).symm

/-- The covariance entries from w₂, h₂, c, s. -/
def entA (w2 h2 c s : EReal) : EReal := w2 * c * c + h2 * s * s
def entB (w2 h2 c s : EReal) : EReal := (w2 - h2) * s * c
def entD (w2 h2 c s : EReal) : EReal := w2 * s * s + h2 * c * c
def det (a b d : EReal) : EReal := a * d - b * b

/-- The loss from the two centres' differences and the two covariances. -/
def lossOf (dx dy ap bp dp detp at' bt dt dett : EReal) : EReal :=
  one - Ideal.div one (one + Ideal.log1p (Ideal.sqrt (max zero
    (Ideal.div (Ideal.div (half * (dx * dx * dp - two * dx * dy * bp + dy * dy * ap)) detp) one
      + (Ideal.div (half * (dp * at' - two * bp * bt + ap * dt)) detp + half * (Ideal.log detp - Ideal.log dett) - one)))))

/-- The loss of the predicted box (p0, …, p4) against the target box (q0, …, q4). -/
def boxLoss (p0 p1 p2 p3 p4 q0 q1 q2 q3 q4 : EReal) : EReal :=
  lossOf (p0 - q0) (p1 - q1)
    (entA (sq4 p2) (sq4 p3) (Ideal.cos p4) (Ideal.sin p4))
    (entB (sq4 p2) (sq4 p3) (Ideal.cos p4) (Ideal.sin p4))
    (entD (sq4 p2) (sq4 p3) (Ideal.cos p4) (Ideal.sin p4))
    (det (entA (sq4 p2) (sq4 p3) (Ideal.cos p4) (Ideal.sin p4)) (entB (sq4 p2) (sq4 p3) (Ideal.cos p4) (Ideal.sin p4))
      (entD (sq4 p2) (sq4 p3) (Ideal.cos p4) (Ideal.sin p4)))
    (entA (sq4 q2) (sq4 q3) (Ideal.cos q4) (Ideal.sin q4))
    (entB (sq4 q2) (sq4 q3) (Ideal.cos q4) (Ideal.sin q4))
    (entD (sq4 q2) (sq4 q3) (Ideal.cos q4) (Ideal.sin q4))
    (det (entA (sq4 q2) (sq4 q3) (Ideal.cos q4) (Ideal.sin q4)) (entB (sq4 q2) (sq4 q3) (Ideal.cos q4) (Ideal.sin q4))
      (entD (sq4 q2) (sq4 q3) (Ideal.cos q4) (Ideal.sin q4)))

/-! ## The mean of N = 4 000 000 terms, two ways -/

/-- The word 0x4A742400 denotes four million. -/
theorem word_n : Ideal.ofBits .f32 0x4A742400#32 = ((4000000 : ℝ) : EReal) := by
  simp [Ideal.ofBits, Ideal.ieee, -EReal.coe_mul]; norm_num

/-- The word 0x3F800000 denotes one. -/
theorem word_one : Ideal.ofBits .f32 0x3F800000#32 = (1 : EReal) := by
  simp [Ideal.ofBits, Ideal.ieee, -EReal.coe_mul]; norm_num

/-- One times the quotient by four million of zero plus a total is the total times the exact reciprocal 1/4000000,
    for every extended real total. -/
theorem mean_eq (S : EReal) :
    Ideal.ofBits .f32 0x3F800000#32 * Ideal.div (Ideal.ofBits .f32 0x00000000#32 + S) (Ideal.ofBits .f32 0x4A742400#32)
      = S * ((1 / 4000000 : ℝ) : EReal) := by
  rw [word_one, word_n, Ideal.ofBits_zero_f32, zero_add, one_mul, Ideal.div_coe (by norm_num : (4000000 : ℝ) ≠ 0)]

end Cert.BoxLoss

end
-- ==== Proof.LibColumnForms.lean ====
/-
  General facts about rank-2 arrays, for any sizes.

  The column forms a row-wise reduction with kept dimensions needs: a vector of `a` row values viewed as an `a × 1`
  column, and such a column spread over `b` columns.  And the two one-axis sums of an `a × b` array of extended reals:
  along the rows' entries (one value per row) and down the columns (one value per column), each as a plain finite sum.
-/
import Idealize.ShloMosaic.PureOps.Ideal.Laws
import Idealize.ShloMosaic.Lib.ValueIdx
import Idealize.ShloMosaic.Lib.ValueLayout
import Idealize.ShloMosaic.Lib.Pipeline.Value

namespace Cert.Lib.ColumnForms

open Idealize.ShloMosaic Idealize.ShloMosaic.ValueIdx

variable {α : Type}

/-- An `[a]` array cast to an `[a, 1]` column reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- The sum along each row of an `a × b` array of extended reals: at row `r`, the sum over the `b` columns. -/
theorem rowSum_apply {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext ax; apply Fin.ext
  match ax with
  | ⟨0, _⟩ => rfl
  | ⟨1, _⟩ => rfl

/-- The sum down each column of an `a × b` array of extended reals: at column `c`, the sum over the `a` rows. -/
theorem colSum_apply {a b : ℕ} {φ : FTy} (src : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) := by
  refine (Ideal.multiReduction_add_single src acc h hφ hacc (ix1 c)).trans ?_
  refine Finset.sum_congr rfl fun k _ => congrArg src ?_
  funext ax; apply Fin.ext
  match ax with
  | ⟨0, _⟩ => rfl
  | ⟨1, _⟩ => rfl

end Cert.Lib.ColumnForms
-- ==== Proof.LibGridSums.lean ====
/-
  Sums over a plane cut into tiles, in any commutative additive monoid and for any sizes.
-/
import Mathlib.Algebra.BigOperators.Fin

namespace GridSums

variable {M : Type*} [AddCommMonoid M]

/-- A sum over A·B consecutive positions is the sum over A tiles of B positions each: position B·a + j is
    position j of tile a. -/
theorem sum_tiles (A B : ℕ) (g : ℕ → M) :
    ∑ i : Fin (A * B), g i.val = ∑ a : Fin A, ∑ j : Fin B, g (B * a.val + j.val) := by
  rw [← finProdFinEquiv.sum_comp, Fintype.sum_prod_type]
  refine Finset.sum_congr rfl fun a _ => Finset.sum_congr rfl fun j _ => ?_
  show g (j.val + B * a.val) = _
  rw [Nat.add_comm]

/-- A plane of (A·B) × (C·D) cut into A × C tiles of B × D, the tiles visited in row-major order s = 0 … A·C - 1
    (row tile s / C, column tile s % C): the sum over the visits of each tile's double sum is the double sum over
    the plane. This is what an accumulator that is reset before the first tile and added into at every tile holds
    after the last one, whatever the order of the visits inside the sum. -/
theorem sum_grid (A B C D : ℕ) (hC : 0 < C) (f : ℕ → ℕ → M) :
    ∑ s ∈ Finset.range (A * C), ∑ r : Fin B, ∑ l : Fin D, f (B * (s / C) + r.val) (D * (s % C) + l.val)
      = ∑ h : Fin (A * B), ∑ w : Fin (C * D), f h.val w.val := by
  rw [Finset.sum_range]
  refine (sum_tiles (M := M) A C (fun s => ∑ r : Fin B, ∑ l : Fin D, f (B * (s / C) + r.val) (D * (s % C) + l.val))).trans ?_
  have hR : ∑ h : Fin (A * B), ∑ w : Fin (C * D), f h.val w.val
      = ∑ a : Fin A, ∑ r : Fin B, ∑ w : Fin (C * D), f (B * a.val + r.val) w.val :=
    sum_tiles (M := M) A B (fun h => ∑ w : Fin (C * D), f h w.val)
  rw [hR]
  refine Finset.sum_congr rfl fun a _ => ?_
  rw [Finset.sum_comm]
  refine Finset.sum_congr rfl fun r _ => ?_
  have hW : ∑ w : Fin (C * D), f (B * a.val + r.val) w.val
      = ∑ c : Fin C, ∑ l : Fin D, f (B * a.val + r.val) (D * c.val + l.val) :=
    sum_tiles (M := M) C D (fun w => f (B * a.val + r.val) w)
  rw [hW]
  refine Finset.sum_congr rfl fun c _ => Finset.sum_congr rfl fun l _ => ?_
  have h1 : (C * a.val + c.val) / C = a.val := by
    rw [Nat.mul_add_div hC, Nat.div_eq_of_lt c.isLt, Nat.add_zero]
  have h2 : (C * a.val + c.val) % C = c.val := by
    rw [Nat.mul_add_mod, Nat.mod_eq_of_lt c.isLt]
  rw [h1, h2]

end GridSums
-- ==== Proof.TileSums.lean ====
/-
  Sums of a sequence of extended reals (or of any commutative additive monoid) taken tile by tile.

  A tile is 3200 consecutive terms. Inside a tile the terms are laid out as 25 rows of 128 and summed down the columns
  first, then along the row of column sums; over the tiles a running total is kept. Both are the plain sum: addition is
  commutative and associative, on the extended reals too.
-/
import proofs.«120014_j70609262346548_2_alg».proof.Proof.LibGridSums
import Idealize.ShloMosaic.Lib.ValueIdx

namespace Cert.TileSums

open Idealize.ShloMosaic Idealize.ShloMosaic.ValueIdx

variable {M : Type*} [AddCommMonoid M]

/-- The indices of a rank-1 array of `n` entries are the `n` positions. -/
def idx1Equiv (n : ℕ) : Fin n ≃ (⟨1, ![n]⟩ : Shape).Idx where
  toFun r := ix1 r
  invFun j := j 0
  left_inv _ := rfl
  right_inv j := (eq_ix1 j).symm

/-- A sum over the indices of a rank-1 array is the sum over its positions. -/
theorem sum_rank1 {n : ℕ} (f : (⟨1, ![n]⟩ : Shape).Idx → M) : ∑ j, f j = ∑ r : Fin n, f (ix1 r) :=
  ((idx1Equiv n).sum_comp f).symm

/-- 3200 terms as 25 rows of 128, summed down each column and then along the row of column sums. -/
theorem sum_25x128 (u : ℕ → M) : ∑ l : Fin 128, ∑ s : Fin 25, u (128 * s.val + l.val) = ∑ j : Fin 3200, u j.val := by
  rw [Finset.sum_comm]
  exact (GridSums.sum_tiles 25 128 u).symm

/-- The running total after one more tile of `b` terms. -/
theorem sum_succ_tile (b n : ℕ) (f : ℕ → M) :
    (∑ j : Fin ((n + 1) * b), f j.val) + ∑ c : Fin b, f ((n + 1) * b + c.val) = ∑ j : Fin ((n + 2) * b), f j.val := by
  rw [Fin.sum_univ_eq_sum_range (fun j => f j) ((n + 1) * b), Fin.sum_univ_eq_sum_range (fun c => f ((n + 1) * b + c)) b,
    Fin.sum_univ_eq_sum_range (fun j => f j) ((n + 2) * b), show (n + 2) * b = (n + 1) * b + b by ring,
    Finset.sum_range_add]

/-- The first tile alone. -/
theorem sum_first_tile (b : ℕ) (f : ℕ → M) : ∑ c : Fin b, f (0 * b + c.val) = ∑ j : Fin ((0 + 1) * b), f j.val := by
  rw [Fin.sum_univ_eq_sum_range (fun c => f (0 * b + c)) b, Fin.sum_univ_eq_sum_range (fun j => f j) ((0 + 1) * b),
    zero_add, one_mul]
  exact Finset.sum_congr rfl fun x _ => by rw [zero_mul, zero_add]

end Cert.TileSums
-- ==== Proof.TileReduce.lean ====
/-
  Two readings of vector operations at an index, at the exact values and for these literal shapes.

  `column_apply`: column k of a 3200 × 5 block, taken as a 3200 × 1 slice and flattened, holds at position j the block's
  entry (j, k).
  `tile_total`: a vector of 3200 entries viewed as 25 rows of 128, summed down the columns to 128 column sums, these
  viewed as one row and summed to a single entry, holds the sum of the 3200 entries.
-/
import proofs.«120014_j70609262346548_2_alg».proof.Proof.LibColumnForms
import proofs.«120014_j70609262346548_2_alg».proof.Proof.TileSums
import Idealize.ShloMosaic.PureOps.Ideal.Laws
import Idealize.ShloMosaic.Lib.ValueIdx
import Idealize.ShloMosaic.Lib.ValueLayout
import Idealize.ShloMosaic.Lib.Pipeline.Value

noncomputable section

namespace Cert.TileReduce

open Idealize.ShloMosaic Idealize.ShloMosaic.ValueIdx

/-- Column `k` of a 3200 × 5 array, sliced out as 3200 × 1 and flattened to 3200 entries, read at `j`. -/
theorem column_apply {α : Type} (v : (⟨2, ![3200, 5]⟩ : Shape).Idx → α) (k : Fin 5) (off : Fin 2 → Nat)
    (hoff : off = ![0, k.val]) (hs : (⟨2, ![3200, 5]⟩ : Shape).Slices off ⟨2, ![3200, 1]⟩)
    (hc : (⟨2, ![3200, 1]⟩ : Shape).ShapeCasts ⟨1, ![3200]⟩) (j : Fin 3200) :
    shapeCast ⟨1, ![3200]⟩ (extractStridedSlice ⟨2, ![3200, 1]⟩ off v hs) hc (ix1 j) = v (ix2 j k) := by
  subst hoff
  refine (shapeCast_apply _ hc (ix1 j) (ix2 j (0 : Fin 1)) ?_).trans ?_
  · rw [Shape.rowMajor_val_two, Shape.rowMajor_val_one]
    show j.val * 1 + 0 = j.val
    omega
  · refine extractStridedSlice_apply _ v hs (ix2 j (0 : Fin 1)) (ix2 j k) fun a => ?_
    match a with
    | ⟨0, _⟩ => show j.val = 0 + j.val; omega
    | ⟨1, _⟩ => show k.val = k.val + 0; omega

/-- The two-stage total of 3200 entries. -/
theorem tile_total {φ : FTy} (u : FVec Ideal ⟨1, ![3200]⟩ φ) (acc : BitVec φ.bits)
    (h1 : (⟨1, ![3200]⟩ : Shape).ShapeCasts ⟨2, ![25, 128]⟩)
    (h2 : Shape.Reduces ⟨2, ![25, 128]⟩ [0] ⟨1, ![128]⟩)
    (h3 : (⟨1, ![128]⟩ : Shape).ShapeCasts ⟨2, ![1, 128]⟩)
    (h4 : Shape.Reduces ⟨2, ![1, 128]⟩ [1] ⟨1, ![1]⟩)
    (h5 : (⟨1, ![1]⟩ : Shape).ShapeCasts ⟨2, ![1, 1]⟩)
    (hφ : FKind.Formats φ) (hacc : acc = FKind.add.neutral φ hφ) (hφ' : FKind.Formats φ) (hacc' : acc = FKind.add.neutral φ hφ') :
    shapeCast ⟨2, ![1, 1]⟩
      (multiReduction .add [1] ⟨1, ![1]⟩
        (shapeCast ⟨2, ![1, 128]⟩ (multiReduction .add [0] ⟨1, ![128]⟩ (shapeCast ⟨2, ![25, 128]⟩ u h1) acc h2 hφ hacc) h3)
        acc h4 hφ' hacc') h5 (ix2 (0 : Fin 1) (0 : Fin 1))
      = ∑ j : Fin 3200, u (ix1 j) := by
  refine (shapeCast_apply _ h5 (ix2 (0 : Fin 1) (0 : Fin 1)) (ix1 (0 : Fin 1)) ?_).trans ?_
  · rw [Shape.rowMajor_val_two, Shape.rowMajor_val_one]
    rfl
  refine (Cert.Lib.ColumnForms.rowSum_apply _ acc h4 hφ' hacc' (0 : Fin 1)).trans ?_
  refine ((Finset.sum_congr rfl fun l _ => ?_).trans
    (Cert.TileSums.sum_25x128 (fun n => if h : n < 3200 then u (ix1 ⟨n, h⟩) else 0))).trans
    (Finset.sum_congr rfl fun j _ => dif_pos j.isLt)
  refine (shapeCast_apply _ h3 (ix2 (0 : Fin 1) l) (ix1 l) ?_).trans ?_
  · rw [Shape.rowMajor_val_two, Shape.rowMajor_val_one]
    show l.val = 0 * 128 + l.val
    omega
  refine (Cert.Lib.ColumnForms.colSum_apply _ acc h2 hφ hacc l).trans ?_
  refine Finset.sum_congr rfl fun s _ => ?_
  have hlt : 128 * s.val + l.val < 3200 := by have := s.isLt; have := l.isLt; omega
  rw [dif_pos hlt]
  refine shapeCast_apply u h1 (ix2 s l) (ix1 ⟨128 * s.val + l.val, hlt⟩) ?_
  rw [Shape.rowMajor_val_two, Shape.rowMajor_val_one]
  show 128 * s.val + l.val = s.val * 128 + l.val
  omega

end Cert.TileReduce

end
-- ==== Proof.TileValue.lean ====
/-
  The tile value at the exact values: what the body adds to the accumulator is the sum, over the tile's 3200 boxes, of
  the box loss times the weight.

  The body's arithmetic is pointwise on vectors of 3200 entries (entry j of every intermediate vector is the same
  expression of row j of the two blocks), followed by the two-stage total of the 3200 products; so the 1 × 1 result is
  the accumulator's entry plus Σ_j boxLoss(row j of x0, row j of x1) · w_j.
-/
import proofs.«120014_j70609262346548_2_alg».proof.Proof.Pieces
import proofs.«120014_j70609262346548_2_alg».proof.Proof.RowLoss
import proofs.«120014_j70609262346548_2_alg».proof.Proof.TileReduce

noncomputable section

open Idealize.ShloMosaic Idealize.ShloMosaic.TcCoe Idealize.SL.Sem

namespace Cert.KernelIdeal.Tile

open Cert.KernelIdeal Cert.KernelIdeal.Gen Idealize.ShloMosaic.ValueIdx Cert.BoxLoss

/-! Pointwise operations read at an index, at the exact values. -/
theorem cos_at {s : Shape} {φ : FTy} (a : FVec Ideal s φ) (i : s.Idx) : cos a i = Ideal.cos (a i) := rfl
theorem sin_at {s : Shape} {φ : FTy} (a : FVec Ideal s φ) (i : s.Idx) : sin a i = Ideal.sin (a i) := rfl
theorem log_at {s : Shape} {φ : FTy} (a : FVec Ideal s φ) (i : s.Idx) : log a i = Ideal.log (a i) := rfl
theorem sqrt_at {s : Shape} {φ : FTy} (a : FVec Ideal s φ) (i : s.Idx) : sqrt a i = Ideal.sqrt (a i) := rfl
theorem log1p_at {s : Shape} {φ : FTy} (a : FVec Ideal s φ) (i : s.Idx) : log1p a i = Ideal.log1p (a i) := rfl
theorem word_at (b : BitVec 32) : Scalar.ofBits (F := Ideal) .f32 b = Ideal.ofBits .f32 b := rfl

/-! The five columns of a block, flattened, read at a row. -/
theorem col0 (v : Vec Ideal S3200x5 .f32) (j : Fin 3200) :
    (shapeCast S3200 (extractStridedSlice S3200x1 ![0, 0] v slices_S3200x5_o0_0_S3200x1 : FVec Ideal S3200x1 .f32)
        shapeCasts_S3200x1_S3200 : FVec Ideal S3200 .f32) (ix1 j)
      = v (ix2 j (0 : Fin 5)) := Cert.TileReduce.column_apply (α := Ideal .f32) v 0 _ rfl _ _ j
theorem col1 (v : Vec Ideal S3200x5 .f32) (j : Fin 3200) :
    (shapeCast S3200 (extractStridedSlice S3200x1 ![0, 1] v slices_S3200x5_o0_1_S3200x1 : FVec Ideal S3200x1 .f32)
        shapeCasts_S3200x1_S3200 : FVec Ideal S3200 .f32) (ix1 j)
      = v (ix2 j (1 : Fin 5)) := Cert.TileReduce.column_apply (α := Ideal .f32) v 1 _ rfl _ _ j
theorem col2 (v : Vec Ideal S3200x5 .f32) (j : Fin 3200) :
    (shapeCast S3200 (extractStridedSlice S3200x1 ![0, 2] v slices_S3200x5_o0_2_S3200x1 : FVec Ideal S3200x1 .f32)
        shapeCasts_S3200x1_S3200 : FVec Ideal S3200 .f32) (ix1 j)
      = v (ix2 j (2 : Fin 5)) := Cert.TileReduce.column_apply (α := Ideal .f32) v 2 _ rfl _ _ j
theorem col3 (v : Vec Ideal S3200x5 .f32) (j : Fin 3200) :
    (shapeCast S3200 (extractStridedSlice S3200x1 ![0, 3] v slices_S3200x5_o0_3_S3200x1 : FVec Ideal S3200x1 .f32)
        shapeCasts_S3200x1_S3200 : FVec Ideal S3200 .f32) (ix1 j)
      = v (ix2 j (3 : Fin 5)) := Cert.TileReduce.column_apply (α := Ideal .f32) v 3 _ rfl _ _ j
theorem col4 (v : Vec Ideal S3200x5 .f32) (j : Fin 3200) :
    (shapeCast S3200 (extractStridedSlice S3200x1 ![0, 4] v slices_S3200x5_o0_4_S3200x1 : FVec Ideal S3200x1 .f32)
        shapeCasts_S3200x1_S3200 : FVec Ideal S3200 .f32) (ix1 j)
      = v (ix2 j (4 : Fin 5)) := Cert.TileReduce.column_apply (α := Ideal .f32) v 4 _ rfl _ _ j

/-! The body's intermediate vectors, entry j: each is the named scalar expression of row j. -/
section entries
variable (x0 x1 : Vec Ideal S3200x5 .f32) (j : Fin 3200)

theorem angle0_at : k0_pay3 (F := Ideal) x0 (ix1 j) = x0 (ix2 j (4 : Fin 5)) := by
  unfold k0_pay3; exact col4 x0 j
theorem sqw0_at : k0_pay4 (F := Ideal) x0 (ix1 j) = sq4 (x0 (ix2 j (2 : Fin 5))) := by
  unfold k0_pay4 sq4
  simp only [mulf_apply, maximumf_apply, broadcast_apply, col2, word_at]
theorem sqh0_at : k0_pay5 (F := Ideal) x0 (ix1 j) = sq4 (x0 (ix2 j (3 : Fin 5))) := by
  unfold k0_pay5 sq4
  simp only [mulf_apply, maximumf_apply, broadcast_apply, col3, word_at]
theorem cos0_at : k0_pay6 (F := Ideal) x0 (ix1 j) = Ideal.cos (x0 (ix2 j (4 : Fin 5))) := by
  unfold k0_pay6; exact (cos_at _ _).trans (congrArg Ideal.cos (angle0_at x0 j))
theorem sin0_at : k0_pay7 (F := Ideal) x0 (ix1 j) = Ideal.sin (x0 (ix2 j (4 : Fin 5))) := by
  unfold k0_pay7; exact (sin_at _ _).trans (congrArg Ideal.sin (angle0_at x0 j))
theorem entA0_at : k0_pay8 (F := Ideal) x0 (ix1 j)
    = entA (sq4 (x0 (ix2 j (2 : Fin 5)))) (sq4 (x0 (ix2 j (3 : Fin 5)))) (Ideal.cos (x0 (ix2 j (4 : Fin 5)))) (Ideal.sin (x0 (ix2 j (4 : Fin 5)))) := by
  unfold k0_pay8 entA
  simp only [mulf_apply, addf_apply, sqw0_at, sqh0_at, cos0_at, sin0_at]
theorem entB0_at : k0_pay9 (F := Ideal) x0 (ix1 j)
    = entB (sq4 (x0 (ix2 j (2 : Fin 5)))) (sq4 (x0 (ix2 j (3 : Fin 5)))) (Ideal.cos (x0 (ix2 j (4 : Fin 5)))) (Ideal.sin (x0 (ix2 j (4 : Fin 5)))) := by
  unfold k0_pay9 entB
  simp only [mulf_apply, subf_apply, sqw0_at, sqh0_at, cos0_at, sin0_at]
theorem entD0_at : k0_pay10 (F := Ideal) x0 (ix1 j)
    = entD (sq4 (x0 (ix2 j (2 : Fin 5)))) (sq4 (x0 (ix2 j (3 : Fin 5)))) (Ideal.cos (x0 (ix2 j (4 : Fin 5)))) (Ideal.sin (x0 (ix2 j (4 : Fin 5)))) := by
  unfold k0_pay10 entD
  simp only [mulf_apply, addf_apply, sqw0_at, sqh0_at, cos0_at, sin0_at]
theorem det0_at : k0_pay11 (F := Ideal) x0 (ix1 j) = det (k0_pay8 (F := Ideal) x0 (ix1 j)) (k0_pay9 (F := Ideal) x0 (ix1 j)) (k0_pay10 (F := Ideal) x0 (ix1 j)) := by
  unfold k0_pay11 det
  simp only [mulf_apply, subf_apply]

theorem width1_at : k0_pay12 (F := Ideal) x1 (ix1 j) = x1 (ix2 j (2 : Fin 5)) := by
  unfold k0_pay12; exact col2 x1 j
theorem eps_at : k0_pay13 (F := Ideal) (ix1 j) = eps := by
  unfold k0_pay13; rfl
theorem angle1_at : k0_pay14 (F := Ideal) x1 (ix1 j) = x1 (ix2 j (4 : Fin 5)) := by
  unfold k0_pay14; exact col4 x1 j
theorem sqw1_at : k0_pay15 (F := Ideal) (k0_pay12 x1) k0_pay13 (ix1 j) = sq4 (x1 (ix2 j (2 : Fin 5))) := by
  unfold k0_pay15 sq4
  simp only [mulf_apply, maximumf_apply, broadcast_apply, width1_at, eps_at, word_at]
theorem sqh1_at : k0_pay16 (F := Ideal) x1 (ix1 j) = sq4 (x1 (ix2 j (3 : Fin 5))) := by
  unfold k0_pay16 sq4
  simp only [mulf_apply, maximumf_apply, broadcast_apply, col3, word_at]
theorem cos1_at : k0_pay17 (F := Ideal) x1 (ix1 j) = Ideal.cos (x1 (ix2 j (4 : Fin 5))) := by
  unfold k0_pay17; exact (cos_at _ _).trans (congrArg Ideal.cos (angle1_at x1 j))
theorem sin1_at : k0_pay18 (F := Ideal) x1 (ix1 j) = Ideal.sin (x1 (ix2 j (4 : Fin 5))) := by
  unfold k0_pay18; exact (sin_at _ _).trans (congrArg Ideal.sin (angle1_at x1 j))
theorem entA1_at : k0_pay19 (F := Ideal) x1 (k0_pay12 x1) k0_pay13 (ix1 j)
    = entA (sq4 (x1 (ix2 j (2 : Fin 5)))) (sq4 (x1 (ix2 j (3 : Fin 5)))) (Ideal.cos (x1 (ix2 j (4 : Fin 5)))) (Ideal.sin (x1 (ix2 j (4 : Fin 5)))) := by
  unfold k0_pay19 entA
  simp only [mulf_apply, addf_apply, sqw1_at, sqh1_at, cos1_at, sin1_at]
theorem entB1_at : k0_pay20 (F := Ideal) x1 (k0_pay12 x1) k0_pay13 (ix1 j)
    = entB (sq4 (x1 (ix2 j (2 : Fin 5)))) (sq4 (x1 (ix2 j (3 : Fin 5)))) (Ideal.cos (x1 (ix2 j (4 : Fin 5)))) (Ideal.sin (x1 (ix2 j (4 : Fin 5)))) := by
  unfold k0_pay20 entB
  simp only [mulf_apply, subf_apply, sqw1_at, sqh1_at, cos1_at, sin1_at]
theorem entD1_at : k0_pay21 (F := Ideal) x1 (k0_pay12 x1) k0_pay13 (ix1 j)
    = entD (sq4 (x1 (ix2 j (2 : Fin 5)))) (sq4 (x1 (ix2 j (3 : Fin 5)))) (Ideal.cos (x1 (ix2 j (4 : Fin 5)))) (Ideal.sin (x1 (ix2 j (4 : Fin 5)))) := by
  unfold k0_pay21 entD
  simp only [mulf_apply, addf_apply, sqw1_at, sqh1_at, cos1_at, sin1_at]
theorem det1_at : k0_pay22 (F := Ideal) x1 (k0_pay12 x1) k0_pay13 (ix1 j)
    = det (k0_pay19 (F := Ideal) x1 (k0_pay12 x1) k0_pay13 (ix1 j)) (k0_pay20 (F := Ideal) x1 (k0_pay12 x1) k0_pay13 (ix1 j))
        (k0_pay21 (F := Ideal) x1 (k0_pay12 x1) k0_pay13 (ix1 j)) := by
  unfold k0_pay22 det
  simp only [mulf_apply, subf_apply]

/-- The centre term ½(Δx²·d - 2ΔxΔy·b + Δy²·a)/det from the blocks and the predicted box's covariance vectors. -/
theorem centre_at (a b d dt : FVec Ideal S3200 .f32) : k0_pay23 (F := Ideal) x0 x1 a b d dt (ix1 j)
    = Ideal.div (half * ((x0 (ix2 j (0 : Fin 5)) - x1 (ix2 j (0 : Fin 5))) * (x0 (ix2 j (0 : Fin 5)) - x1 (ix2 j (0 : Fin 5))) * d (ix1 j)
        - two * (x0 (ix2 j (0 : Fin 5)) - x1 (ix2 j (0 : Fin 5))) * (x0 (ix2 j (1 : Fin 5)) - x1 (ix2 j (1 : Fin 5))) * b (ix1 j)
        + (x0 (ix2 j (1 : Fin 5)) - x1 (ix2 j (1 : Fin 5))) * (x0 (ix2 j (1 : Fin 5)) - x1 (ix2 j (1 : Fin 5))) * a (ix1 j))) (dt (ix1 j)) := by
  unfold k0_pay23
  simp only [mulf_apply, addf_apply, subf_apply, divf_apply, broadcast_apply, col0, col1, word_at]
theorem cross_at (d : FVec Ideal S3200 .f32) : k0_pay24 (F := Ideal) x1 d (k0_pay12 x1) k0_pay13 (ix1 j)
    = d (ix1 j) * k0_pay19 (F := Ideal) x1 (k0_pay12 x1) k0_pay13 (ix1 j) := by
  unfold k0_pay24; rfl

end entries

/-- The tile value: the accumulator's entry plus the sum over the tile's boxes of loss times weight. -/
theorem tileVal_apply (x0 x1 : Vec Ideal S3200x5 .f32) (w : Vec Ideal S3200 .f32) (acc : Vec Ideal S1x1 .f32) :
    tileVal (F := Ideal) x0 x1 w acc (ix2 (0 : Fin 1) (0 : Fin 1))
      = acc (ix2 (0 : Fin 1) (0 : Fin 1)) + ∑ j : Fin 3200,
          boxLoss (x0 (ix2 j (0 : Fin 5))) (x0 (ix2 j (1 : Fin 5))) (x0 (ix2 j (2 : Fin 5))) (x0 (ix2 j (3 : Fin 5))) (x0 (ix2 j (4 : Fin 5)))
            (x1 (ix2 j (0 : Fin 5))) (x1 (ix2 j (1 : Fin 5))) (x1 (ix2 j (2 : Fin 5))) (x1 (ix2 j (3 : Fin 5))) (x1 (ix2 j (4 : Fin 5)))
            * w (ix1 j) := by
  unfold tileVal k0_pay25
  refine (addf_apply _ _ _).trans ?_
  refine congrArg₂ (· + ·) (congrFun (shapeCast_self acc _) _) ?_
  refine (Cert.TileReduce.tile_total _ _ _ _ _ _ _ _ _ _ _).trans ?_
  refine Finset.sum_congr rfl fun j _ => ?_
  refine (mulf_apply _ _ _).trans (congrArg (· * w (ix1 j)) ?_)
  unfold boxLoss lossOf
  simp only [subf_apply, divf_apply, addf_apply, mulf_apply, maximumf_apply, broadcast_apply, log1p_at, sqrt_at, log_at,
    centre_at, cross_at, det0_at, det1_at, entA0_at, entB0_at, entD0_at, entA1_at, entB1_at, entD1_at, Ideal.ofBits_def]

end Cert.KernelIdeal.Tile

end
-- ==== Proof.MeanLoss.lean ====
/-
  The weighted mean loss of four million pairs of boxes.

  `term P T W r` is the loss of row r of the predicted array P against row r of the target array T, times the weight
  W r; `mean` is the sum of the four million terms times the exact reciprocal 1/4000000. `termN` is `term` as a
  function of a natural number (zero from four million on), the form in which sums over tiles of rows are taken.
-/
import proofs.«120014_j70609262346548_2_alg».proof.Proof.RowLoss
import Idealize.ShloMosaic.Lib.ValueIdx

noncomputable section

namespace Cert.BoxLoss

open Idealize.ShloMosaic Idealize.ShloMosaic.ValueIdx

variable (P T : (⟨2, ![4000000, 5]⟩ : Shape).Idx → EReal) (W : (⟨1, ![4000000]⟩ : Shape).Idx → EReal)

/-- Loss times weight of row `r`. -/
def term (r : Fin 4000000) : EReal :=
  boxLoss (P (ix2 r (0 : Fin 5))) (P (ix2 r (1 : Fin 5))) (P (ix2 r (2 : Fin 5))) (P (ix2 r (3 : Fin 5))) (P (ix2 r (4 : Fin 5)))
    (T (ix2 r (0 : Fin 5))) (T (ix2 r (1 : Fin 5))) (T (ix2 r (2 : Fin 5))) (T (ix2 r (3 : Fin 5))) (T (ix2 r (4 : Fin 5)))
    * W (ix1 r)

/-- The same at a natural number. -/
def termN (n : ℕ) : EReal := if h : n < 4000000 then term P T W ⟨n, h⟩ else 0

/-- The weighted mean. -/
def mean : EReal := (∑ r : Fin 4000000, term P T W r) * ((1 / 4000000 : ℝ) : EReal)

/-- The sum over 1250 tiles of 3200 rows is the sum over the four million rows. -/
theorem sum_termN : ∑ j : Fin (1250 * 3200), termN P T W j.val = ∑ r : Fin 4000000, term P T W r := by
  show ∑ j : Fin 4000000, termN P T W j.val = _
  exact Finset.sum_congr rfl fun r _ => dif_pos r.isLt

end Cert.BoxLoss

end
-- ==== Proof.KernelTotal.lean ====
/-
  The kernel's accumulator over the grid, at the exact values.

  Point t of the 1250 grid points reads rows 3200·t … 3200·t + 3199 of the two box arrays through its windows and the
  same rows of the weight array by its own copy. The accumulator block holds, after point n < 1249, the sum of the
  terms of the first 3200·(n + 1) rows (the first point starts it from zero), and after the last point the sum of all
  four million terms times 1/4000000: the weighted mean.
-/
import proofs.«120014_j70609262346548_2_alg».proof.Proof.TileValue
import proofs.«120014_j70609262346548_2_alg».proof.Proof.MeanLoss
import Idealize.ShloMosaic.PureOps.IdealRules

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.Tile Idealize.ShloMosaic.ValueIdx Cert.BoxLoss

variable (m : (ℓ : Loc nD τ sig) → Buf (Elt Ideal) ℓ) (ρ : Dev nD → PrngReg)

/-- The three argument arrays on core `c`. -/
abbrev argP (c : Dev nD) : (⟨2, ![4000000, 5]⟩ : Shape).Idx → EReal := (m ((c : Thread nD τ).loc main_arg0) : S4000000x5.Idx → Elt Ideal .f32)
abbrev argT (c : Dev nD) : (⟨2, ![4000000, 5]⟩ : Shape).Idx → EReal := (m ((c : Thread nD τ).loc main_arg1) : S4000000x5.Idx → Elt Ideal .f32)
abbrev argW (c : Dev nD) : (⟨1, ![4000000]⟩ : Shape).Idx → EReal := (m ((c : Thread nD τ).loc main_arg2) : S4000000.Idx → Elt Ideal .f32)

/-- Where point `t`'s blocks and its copied weights sit: block row `t` of both windows, column block 0, and offset
    3200·t in the weight array — decided over the 1250 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 ∧ k0_off1 (grid0.coords t) (0 : Fin 1) = t.val * 3200 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0 ∧ k0_off1 (grid0.coords t) (0 : Fin 1) = t.val * 3200)

/-- Entry (j, k) of point `t`'s block of the predicted boxes is row 3200·t + j of the array. -/
theorem blk0_at (c : Dev nD) (t : Fin cfg0.N) (j : Fin 3200) (k : Fin 5) (R : Fin 4000000) (hR : R.val = t.val * 3200 + j.val) :
    (iblk m c 0 t : Vec Ideal S3200x5 .f32) (ix2 j k) = argP m c (ix2 R k) := by
  have hi := idx_facts t
  unfold iblk
  rw [View.read_apply]
  show V m c main_arg0 _ = m (c.tc.loc main_arg0) _
  unfold V
  congr 1
  funext a
  apply Fin.ext
  match a with
  | ⟨0, _⟩ => show win0_0.index t 0 * 3200 + 1 * j.val = R.val; rw [hi.1, hR]; omega
  | ⟨1, _⟩ => show win0_0.index t 1 * 5 + 1 * k.val = k.val; rw [hi.2.1]; omega

/-- The same for the target boxes. -/
theorem blk1_at (c : Dev nD) (t : Fin cfg0.N) (j : Fin 3200) (k : Fin 5) (R : Fin 4000000) (hR : R.val = t.val * 3200 + j.val) :
    (iblk m c 1 t : Vec Ideal S3200x5 .f32) (ix2 j k) = argT m c (ix2 R k) := by
  have hi := idx_facts t
  unfold iblk
  rw [View.read_apply]
  show V m c main_arg1 _ = m (c.tc.loc main_arg1) _
  unfold V
  congr 1
  funext a
  apply Fin.ext
  match a with
  | ⟨0, _⟩ => show win0_1.index t 0 * 3200 + 1 * j.val = R.val; rw [hi.2.2.1, hR]; omega
  | ⟨1, _⟩ => show win0_1.index t 1 * 5 + 1 * k.val = k.val; rw [hi.2.2.2.1]; omega

/-- Entry j of the weights point `t` copies is entry 3200·t + j of the weight array. -/
theorem weights_at (c : Dev nD) (t : Fin cfg0.N) (j : Fin 3200) (R : Fin 4000000) (hR : R.val = t.val * 3200 + j.val) :
    weightsAt (F := Ideal) c (grid0.coords t) (V m c main_arg2) (ix1 j) = argW m c (ix1 R) := by
  have hi := idx_facts t
  unfold weightsAt
  rw [View.read_apply]
  show V m c main_arg2 _ = m (c.tc.loc main_arg2) _
  unfold V
  congr 1
  funext a
  apply Fin.ext
  match a with
  | ⟨0, _⟩ => show k0_off1 (grid0.coords t) 0 + 1 * j.val = R.val; rw [hi.2.2.2.2, hR]; omega

/-- Point `t`'s tile value: the accumulator's entry plus the terms of rows 3200·t … 3200·t + 3199. -/
theorem tile_at (c : Dev nD) (t : Fin cfg0.N) (acc : Vec Ideal S1x1 .f32) :
    tileVal (F := Ideal) (iblk m c 0 t) (iblk m c 1 t) (weightsAt c (grid0.coords t) (V m c main_arg2)) acc (ix2 (0 : Fin 1) (0 : Fin 1))
      = acc (ix2 (0 : Fin 1) (0 : Fin 1)) + ∑ j : Fin 3200, termN (argP m c) (argT m c) (argW m c) (t.val * 3200 + j.val) := by
  refine (tileVal_apply (iblk m c 0 t) (iblk m c 1 t) (weightsAt c (grid0.coords t) (V m c main_arg2)) acc).trans ?_
  refine congrArg (acc (ix2 (0 : Fin 1) (0 : Fin 1)) + ·) (Finset.sum_congr rfl fun j _ => ?_)
  have hN : t.val < 1250 := lt_of_lt_of_eq t.isLt (show cfg0.N = 1250 from N_0)
  have hlt : t.val * 3200 + j.val < 4000000 := by have := j.isLt; omega
  unfold termN
  rw [dif_pos hlt]
  unfold term
  rw [blk0_at m c t j 0 ⟨_, hlt⟩ rfl, blk0_at m c t j 1 ⟨_, hlt⟩ rfl, blk0_at m c t j 2 ⟨_, hlt⟩ rfl, blk0_at m c t j 3 ⟨_, hlt⟩ rfl,
    blk0_at m c t j 4 ⟨_, hlt⟩ rfl, blk1_at m c t j 0 ⟨_, hlt⟩ rfl, blk1_at m c t j 1 ⟨_, hlt⟩ rfl, blk1_at m c t j 2 ⟨_, hlt⟩ rfl,
    blk1_at m c t j 3 ⟨_, hlt⟩ rfl, blk1_at m c t j 4 ⟨_, hlt⟩ rfl, weights_at m c t j ⟨_, hlt⟩ rfl]

end Cert.KernelIdeal.Total

end
-- ==== Proof.KernelRun.lean ====
/-
  The kernel's run at the exact values: its scalar result is the weighted mean loss.

  By induction on the grid point the accumulator block holds the running sum of the terms (`running`); the last point
  scales the full sum by 1/4000000 (`last`), and only that point writes the block back, so the 1 × 1 result array is
  the mean; @main then reshapes the 1 × 1 array to a scalar.
-/
import proofs.«120014_j70609262346548_2_alg».proof.Proof.KernelTotal
import Idealize.ShloMosaic.Lib.StableHlo.Run

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.Tile Idealize.ShloMosaic.ValueIdx Cert.BoxLoss

variable (m : (ℓ : Loc nD τ sig) → Buf (Elt Ideal) ℓ) (ρ : Dev nD → PrngReg)

/-- The 1 × 1 block has one index. -/
theorem idx11 (y : (⟨2, ![1, 1]⟩ : Shape).Idx) : y = ix2 (0 : Fin 1) (0 : Fin 1) := by
  funext a; apply Fin.ext
  match a with
  | ⟨0, _⟩ => have h : (y 0).val < 1 := (y 0).isLt; show (y 0).val = 0; omega
  | ⟨1, _⟩ => have h : (y 1).val < 1 := (y 1).isLt; show (y 1).val = 0; omega

/-! What the accumulator block holds after a point of each kind, from the blocks the point reads. -/
theorem at_first (c : Dev nD) (t : Fin cfg0.N) (h0 : t.val % 1250 = 0) (h1 : ¬t.val % 1250 = 1249) :
    outsAt0 m c t.val t.isLt
      = tileVal (iblk m c 0 t) (iblk m c 1 t) (weightsAt c (grid0.coords t) (V m c main_arg2)) (k0_pay2 (F := Ideal)) :=
  (outsAt0_A m c t h0 h1).trans
    (out_A c (grid0.coords t) (ms0_0 t) (hs0_0 t) (ms0_1 t) (hs0_1 t) (ms0_2 t) (hs0_2 t) scM0_0 (Memref.isWhole_whole _) _ _
      (iblk m c 0 t) (iblk m c 1 t) (V m c main_arg2))

theorem at_middle (c : Dev nD) (t : Fin cfg0.N) (h0 : ¬t.val % 1250 = 0) (h1 : ¬t.val % 1250 = 1249) :
    outsAt0 m c t.val t.isLt
      = tileVal (iblk m c 0 t) (iblk m c 1 t) (weightsAt c (grid0.coords t) (V m c main_arg2))
          (outsAt0 m c (t.val - 1) (Nat.lt_of_le_of_lt (Nat.sub_le _ _) t.isLt)) :=
  (outsAt0_B m c t h0 h1).trans
    (out_B c (grid0.coords t) (ms0_0 t) (hs0_0 t) (ms0_1 t) (hs0_1 t) (ms0_2 t) (hs0_2 t) scM0_0 (Memref.isWhole_whole _) _ _
      (iblk m c 0 t) (iblk m c 1 t) (outsAt0 m c (t.val - 1) (Nat.lt_of_le_of_lt (Nat.sub_le _ _) t.isLt)) (V m c main_arg2))

theorem at_last (c : Dev nD) (t : Fin cfg0.N) (h0 : ¬t.val % 1250 = 0) (h1 : t.val % 1250 = 1249) :
    outsAt0 m c t.val t.isLt
      = k0_pay1 (tileVal (iblk m c 0 t) (iblk m c 1 t) (weightsAt c (grid0.coords t) (V m c main_arg2))
          (outsAt0 m c (t.val - 1) (Nat.lt_of_le_of_lt (Nat.sub_le _ _) t.isLt))) :=
  (outsAt0_C m c t h0 h1).trans
    (out_C c (grid0.coords t) (ms0_0 t) (hs0_0 t) (ms0_1 t) (hs0_1 t) (ms0_2 t) (hs0_2 t) scM0_0 (Memref.isWhole_whole _) _ _
      (iblk m c 0 t) (iblk m c 1 t) (outsAt0 m c (t.val - 1) (Nat.lt_of_le_of_lt (Nat.sub_le _ _) t.isLt)) (V m c main_arg2))

/-- The last point's scaling: the block's entry times the exact reciprocal of four million. -/
theorem scaled_at (v : Vec Ideal S1x1 .f32) :
    k0_pay1 (F := Ideal) v (ix2 (0 : Fin 1) (0 : Fin 1)) = v (ix2 (0 : Fin 1) (0 : Fin 1)) * ((1 / 4000000 : ℝ) : EReal) := by
  unfold k0_pay1
  refine (mulf_apply _ _ _).trans ?_
  refine congrArg₂ (· * ·) (congrFun (shapeCast_self v _) _) ?_
  exact IdealRules.named_const.ideal_named_scalar _ _ _ _ rfl

/-- After point n < 1249 the accumulator holds the sum of the terms of the first 3200·(n + 1) rows. -/
theorem running (c : Dev nD) : ∀ (n : ℕ) (hn : n < cfg0.N), n < 1249 →
    outsAt0 m c n hn (ix2 (0 : Fin 1) (0 : Fin 1)) = ∑ j : Fin ((n + 1) * 3200), termN (argP m c) (argT m c) (argW m c) j.val
  | 0, hn, _ => by
    refine (congrFun (at_first m c ⟨0, hn⟩ rfl (by dsimp only; omega)) (ix2 (0 : Fin 1) (0 : Fin 1))).trans ?_
    refine (tile_at m c ⟨0, hn⟩ (k0_pay2 (F := Ideal))).trans ?_
    show Ideal.ofBits .f32 0x00000000#32 + ∑ j : Fin 3200, termN (argP m c) (argT m c) (argW m c) (0 * 3200 + j.val) = _
    rw [Ideal.ofBits_zero_f32, zero_add]
    exact Cert.TileSums.sum_first_tile 3200 _
  | n + 1, hn, hlt => by
    have hB0 : ¬(⟨n + 1, hn⟩ : Fin cfg0.N).val % 1250 = 0 := by dsimp only; omega
    have hB1 : ¬(⟨n + 1, hn⟩ : Fin cfg0.N).val % 1250 = 1249 := by dsimp only; omega
    refine (congrFun (at_middle m c ⟨n + 1, hn⟩ hB0 hB1) (ix2 (0 : Fin 1) (0 : Fin 1))).trans ?_
    refine (tile_at m c ⟨n + 1, hn⟩ _).trans ?_
    have ih := running c n (Nat.lt_of_succ_lt hn) (by omega)
    refine (congrArg (· + ∑ j : Fin 3200, termN (argP m c) (argT m c) (argW m c) ((n + 1) * 3200 + j.val)) ih).trans ?_
    exact Cert.TileSums.sum_succ_tile 3200 n _

/-- After the last point the accumulator holds the weighted mean. -/
theorem last (c : Dev nD) (hn : 1249 < cfg0.N) :
    outsAt0 m c 1249 hn = fun _ => mean (argP m c) (argT m c) (argW m c) := by
  funext y
  rw [idx11 y]
  refine (congrFun (at_last m c ⟨1249, hn⟩ (by dsimp only; omega) rfl) (ix2 (0 : Fin 1) (0 : Fin 1))).trans ?_
  refine (scaled_at _).trans ?_
  refine congrArg (· * ((1 / 4000000 : ℝ) : EReal)) ?_
  refine (tile_at m c ⟨1249, hn⟩ _).trans ?_
  have ih := running m c 1248 (Nat.lt_of_succ_lt hn) (by decide)
  refine (congrArg (· + ∑ j : Fin 3200, termN (argP m c) (argT m c) (argW m c) ((1248 + 1) * 3200 + j.val)) ih).trans ?_
  exact (Cert.TileSums.sum_succ_tile 3200 1248 _).trans (sum_termN _ _ _)

end Cert.KernelIdeal.Total

end
-- ==== Proof.KernelResult.lean ====
/-
  The kernel's scalar result. Only the last grid point writes the accumulator block back, and the block is the whole
  1 × 1 result array, so after the run the array holds the weighted mean; @main's reshape reads it as a scalar.
-/
import proofs.«120014_j70609262346548_2_alg».proof.Proof.KernelRun
import Idealize.ShloMosaic.Lib.StableHlo.Run

noncomputable section

open Idealize.ShloMosaic Idealize.ShloMosaic.TcCoe Idealize.SL.Sem
open Idealize.ShloMosaic.Pipeline (Dat)

namespace Cert.KernelIdeal.Total

open Cert.KernelIdeal Cert.KernelIdeal.Gen Cert.KernelIdeal.Tile Idealize.ShloMosaic.ValueIdx Cert.BoxLoss

variable (m : (ℓ : Loc nD τ sig) → Buf (Elt Ideal) ℓ) (ρ : Dev nD → PrngReg)

/-- The last grid point. -/
def tLast : Fin cfg0.N := ⟨1249, by rw [show cfg0.N = 1250 from N_0]; decide⟩

/-- The 1 × 1 result array's contents after the run: the weighted mean. -/
abbrev block (c : Dev nD) : Buf (Elt Ideal) ((c : Thread nD τ).loc main_v0) := fun _ => mean (argP m c) (argT m c) (argW m c)

/-- The scalar result. -/
abbrev value (c : Dev nD) : Buf (Elt Ideal) ((c : Thread nD τ).loc main_v1) := fun _ => mean (argP m c) (argT m c) (argW m c)

/-- The one write-back, at the last point, writes the mean: its block, at block index (0, 0), is the whole array. -/
theorem flushed_eq (c : Dev nD) (t : Fin cfg0.N) (hf : (cfg0.win 2).flush t = true) :
    (dats m 0 c).flushed 2 t = ((cfg0.win 2).blk t).view.read (Elt Ideal) (block m c) := by
  have hN : cfg0.N = 1250 := N_0
  have h3 : t.val = 1249 := by have := (flush0_2 t).mp hf; have := t.isLt; omega
  obtain rfl : t = tLast := Fin.ext h3
  show (cfg0.win 2).cut (grid0.coords tLast) ((dats m 0 c).after 2 tLast) = _
  rw [after0_2, show outsAt0 m c tLast.val tLast.isLt = _ from last m c tLast.isLt]
  have hz' : (fun a => win0_2.index tLast a * main_v0.ty.shape.size a) = fun _ => 0 := funext fun a => by fin_cases a <;> decide +kernel
  exact (Memref.read_access_unit_zero (Elt Ideal) main_v0 hz' (fun a => by rw [congrFun hz' a]; simp) (block m c)).symm

/-- So the result array ends holding the mean: the last point's block covers it. -/
theorem final_block (c : Dev nD) : (dats m 0 c).arrAt 2 cfg0.N = block m c :=
  (dats m 0 c).arrAt_eq_of_cover 2 (block m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- @main's reshape of the 1 × 1 array: the scalar is the mean. -/
theorem tail_eq (c : Dev nD) : Pipeline.afterTail₀ cfgs (dats m) 0 (V0 m) [hostOps1] c main_v1 = value m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0) = block m c :=
    (Pipeline.withArrays_arr spec0 launch0.win.arr_inj c _ _ 2).trans (final_block m c)
  funext i
  exact congrFun (congrArg (fun x : Buf (Elt Ideal) ((c : Thread nD τ).loc main_v0) => shapeCast S_ x shapeCasts_S1x1_S_) e) i

/-- The run, read: at the exact values every weakly fair execution of @main ends with the scalar result at the weighted
    mean of the argument arrays, and the arguments unchanged. -/
theorem run : θ_run defs (onTc (τ := τ) (main (F := Ideal))) ⟨m, fun _ => 0, ρ⟩ fun r => ∀ c : Dev nD,
      r.2.mem ((c.tc : Thread nD τ).loc main_v1) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Total

end
-- ==== Proof.RefValue.lean ====
/-
  The reference at the exact values: its result is the weighted mean loss.

  Row r of every intermediate array of the reference is an expression of row r of the two box arrays: the clamped
  squares ¼·(W·W) (the same number as (¼·W)·W), the cosine and sine of the angle, the covariance entries and
  determinants, the centre differences, the distance and the loss; the last array is loss · weight, its total is
  taken from zero, divided by four million and multiplied by one.
-/
import proofs.«120014_j70609262346548_2_alg».proof.Proof.Gen.ReferenceIdeal.Read
import proofs.«120014_j70609262346548_2_alg».proof.Proof.MeanLoss
import proofs.«120014_j70609262346548_2_alg».proof.Proof.TileSums
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.BoxLoss

variable (x0 x1 : (⟨S4000000x5, .f32⟩ : BufTy).Contents (Elt Ideal)) (x2 : (⟨S4000000, .f32⟩ : BufTy).Contents (Elt Ideal))
variable (r : Fin 4000000)

/-! Where the reference's slices and reshapes read: column k of row r. -/
theorem at_p0 : idx_main_v0 (idx_main_v66 (idx_main_v67 (ix1 r))) = ix2 r (0 : Fin 5) := by
  funext a; apply Fin.ext
  match a with
  | ⟨0, _⟩ => exact Nat.div_one _
  | ⟨1, _⟩ => rfl
theorem at_p1 : idx_main_v0 (idx_main_v71 (idx_main_v72 (ix1 r))) = ix2 r (1 : Fin 5) := by
  funext a; apply Fin.ext
  match a with
  | ⟨0, _⟩ => exact Nat.div_one _
  | ⟨1, _⟩ => rfl
theorem at_p2 : idx_main_v2 (idx_main_v6 (idx_main_v7 (ix1 r))) = ix2 r (2 : Fin 5) := by
  funext a; apply Fin.ext
  match a with
  | ⟨0, _⟩ => exact Nat.div_one _
  | ⟨1, _⟩ => rfl
theorem at_p3 : idx_main_v2 (idx_main_v11 (idx_main_v12 (ix1 r))) = ix2 r (3 : Fin 5) := by
  funext a; apply Fin.ext
  match a with
  | ⟨0, _⟩ => exact Nat.div_one _
  | ⟨1, _⟩ => rfl
theorem at_p4 : idx_main_v4 (idx_main_v5 (ix1 r)) = ix2 r (4 : Fin 5) := by
  funext a; apply Fin.ext
  match a with
  | ⟨0, _⟩ => exact Nat.div_one _
  | ⟨1, _⟩ => rfl
theorem at_q0 : idx_main_v1 (idx_main_v68 (idx_main_v69 (ix1 r))) = ix2 r (0 : Fin 5) := by
  funext a; apply Fin.ext
  match a with
  | ⟨0, _⟩ => exact Nat.div_one _
  | ⟨1, _⟩ => rfl
theorem at_q1 : idx_main_v1 (idx_main_v73 (idx_main_v74 (ix1 r))) = ix2 r (1 : Fin 5) := by
  funext a; apply Fin.ext
  match a with
  | ⟨0, _⟩ => exact Nat.div_one _
  | ⟨1, _⟩ => rfl
theorem at_q2 : idx_main_v34 (idx_main_v38 (idx_main_v39 (ix1 r))) = ix2 r (2 : Fin 5) := by
  funext a; apply Fin.ext
  match a with
  | ⟨0, _⟩ => exact Nat.div_one _
  | ⟨1, _⟩ => rfl
theorem at_q3 : idx_main_v34 (idx_main_v43 (idx_main_v44 (ix1 r))) = ix2 r (3 : Fin 5) := by
  funext a; apply Fin.ext
  match a with
  | ⟨0, _⟩ => exact Nat.div_one _
  | ⟨1, _⟩ => rfl
theorem at_q4 : idx_main_v36 (idx_main_v37 (ix1 r)) = ix2 r (4 : Fin 5) := by
  funext a; apply Fin.ext
  match a with
  | ⟨0, _⟩ => exact Nat.div_one _
  | ⟨1, _⟩ => rfl

/-! The predicted box's quantities at row r. -/
theorem sqw0_at : val_main_v10 (F := Ideal) x0 (ix1 r) = sq4 (x0 (ix2 r (2 : Fin 5))) := by
  rw [val_main_v10_apply, val_main_v9_apply, val_main_cst_0_apply, val_main_v8_apply, val_main_v7_apply, val_main_v6_apply,
    val_main_v3_apply, val_main_call0_v1_apply, val_main_call0_v0_apply, val_main_cst_apply, val_main_v2_apply, at_p2]
  exact sq4_eq _
theorem sqh0_at : val_main_v15 (F := Ideal) x0 (ix1 r) = sq4 (x0 (ix2 r (3 : Fin 5))) := by
  rw [val_main_v15_apply, val_main_v14_apply, val_main_cst_1_apply, val_main_v13_apply, val_main_v12_apply, val_main_v11_apply,
    val_main_v3_apply, val_main_call0_v1_apply, val_main_call0_v0_apply, val_main_cst_apply, val_main_v2_apply, at_p3]
  exact sq4_eq _
theorem cos0_at : val_main_v16 (F := Ideal) x0 (ix1 r) = Ideal.cos (x0 (ix2 r (4 : Fin 5))) := by
  rw [val_main_v16_apply, val_main_v5_apply, val_main_v4_apply, at_p4]; rfl
theorem sin0_at : val_main_v17 (F := Ideal) x0 (ix1 r) = Ideal.sin (x0 (ix2 r (4 : Fin 5))) := by
  rw [val_main_v17_apply, val_main_v5_apply, val_main_v4_apply, at_p4]; rfl
theorem entA0_at : val_main_v22 (F := Ideal) x0 (ix1 r)
    = entA (sq4 (x0 (ix2 r (2 : Fin 5)))) (sq4 (x0 (ix2 r (3 : Fin 5)))) (Ideal.cos (x0 (ix2 r (4 : Fin 5)))) (Ideal.sin (x0 (ix2 r (4 : Fin 5)))) := by
  rw [val_main_v22_apply, val_main_v19_apply, val_main_v18_apply, val_main_v21_apply, val_main_v20_apply, sqw0_at, sqh0_at, cos0_at, sin0_at]
  rfl
theorem entB0_at : val_main_v25 (F := Ideal) x0 (ix1 r)
    = entB (sq4 (x0 (ix2 r (2 : Fin 5)))) (sq4 (x0 (ix2 r (3 : Fin 5)))) (Ideal.cos (x0 (ix2 r (4 : Fin 5)))) (Ideal.sin (x0 (ix2 r (4 : Fin 5)))) := by
  rw [val_main_v25_apply, val_main_v24_apply, val_main_v23_apply, sqw0_at, sqh0_at, cos0_at, sin0_at]
  rfl
theorem entD0_at : val_main_v30 (F := Ideal) x0 (ix1 r)
    = entD (sq4 (x0 (ix2 r (2 : Fin 5)))) (sq4 (x0 (ix2 r (3 : Fin 5)))) (Ideal.cos (x0 (ix2 r (4 : Fin 5)))) (Ideal.sin (x0 (ix2 r (4 : Fin 5)))) := by
  rw [val_main_v30_apply, val_main_v27_apply, val_main_v26_apply, val_main_v29_apply, val_main_v28_apply, sqw0_at, sqh0_at, cos0_at, sin0_at]
  rfl
theorem det0_at : val_main_v33 (F := Ideal) x0 (ix1 r)
    = det (val_main_v22 (F := Ideal) x0 (ix1 r)) (val_main_v25 (F := Ideal) x0 (ix1 r)) (val_main_v30 (F := Ideal) x0 (ix1 r)) := by
  rw [val_main_v33_apply, val_main_v31_apply, val_main_v32_apply]
  rfl

/-! The target box's quantities at row r. -/
theorem sqw1_at : val_main_v42 (F := Ideal) x1 (ix1 r) = sq4 (x1 (ix2 r (2 : Fin 5))) := by
  rw [val_main_v42_apply, val_main_v41_apply, val_main_cst_3_apply, val_main_v40_apply, val_main_v39_apply, val_main_v38_apply,
    val_main_v35_apply, val_main_call1_v1_apply, val_main_call1_v0_apply, val_main_cst_2_apply, val_main_v34_apply, at_q2]
  exact sq4_eq _
theorem sqh1_at : val_main_v47 (F := Ideal) x1 (ix1 r) = sq4 (x1 (ix2 r (3 : Fin 5))) := by
  rw [val_main_v47_apply, val_main_v46_apply, val_main_cst_4_apply, val_main_v45_apply, val_main_v44_apply, val_main_v43_apply,
    val_main_v35_apply, val_main_call1_v1_apply, val_main_call1_v0_apply, val_main_cst_2_apply, val_main_v34_apply, at_q3]
  exact sq4_eq _
theorem cos1_at : val_main_v48 (F := Ideal) x1 (ix1 r) = Ideal.cos (x1 (ix2 r (4 : Fin 5))) := by
  rw [val_main_v48_apply, val_main_v37_apply, val_main_v36_apply, at_q4]; rfl
theorem sin1_at : val_main_v49 (F := Ideal) x1 (ix1 r) = Ideal.sin (x1 (ix2 r (4 : Fin 5))) := by
  rw [val_main_v49_apply, val_main_v37_apply, val_main_v36_apply, at_q4]; rfl
theorem entA1_at : val_main_v54 (F := Ideal) x1 (ix1 r)
    = entA (sq4 (x1 (ix2 r (2 : Fin 5)))) (sq4 (x1 (ix2 r (3 : Fin 5)))) (Ideal.cos (x1 (ix2 r (4 : Fin 5)))) (Ideal.sin (x1 (ix2 r (4 : Fin 5)))) := by
  rw [val_main_v54_apply, val_main_v51_apply, val_main_v50_apply, val_main_v53_apply, val_main_v52_apply, sqw1_at, sqh1_at, cos1_at, sin1_at]
  rfl
theorem entB1_at : val_main_v57 (F := Ideal) x1 (ix1 r)
    = entB (sq4 (x1 (ix2 r (2 : Fin 5)))) (sq4 (x1 (ix2 r (3 : Fin 5)))) (Ideal.cos (x1 (ix2 r (4 : Fin 5)))) (Ideal.sin (x1 (ix2 r (4 : Fin 5)))) := by
  rw [val_main_v57_apply, val_main_v56_apply, val_main_v55_apply, sqw1_at, sqh1_at, cos1_at, sin1_at]
  rfl
theorem entD1_at : val_main_v62 (F := Ideal) x1 (ix1 r)
    = entD (sq4 (x1 (ix2 r (2 : Fin 5)))) (sq4 (x1 (ix2 r (3 : Fin 5)))) (Ideal.cos (x1 (ix2 r (4 : Fin 5)))) (Ideal.sin (x1 (ix2 r (4 : Fin 5)))) := by
  rw [val_main_v62_apply, val_main_v59_apply, val_main_v58_apply, val_main_v61_apply, val_main_v60_apply, sqw1_at, sqh1_at, cos1_at, sin1_at]
  rfl
theorem det1_at : val_main_v65 (F := Ideal) x1 (ix1 r)
    = det (val_main_v54 (F := Ideal) x1 (ix1 r)) (val_main_v57 (F := Ideal) x1 (ix1 r)) (val_main_v62 (F := Ideal) x1 (ix1 r)) := by
  rw [val_main_v65_apply, val_main_v63_apply, val_main_v64_apply]
  rfl

/-! The centres' differences at row r. -/
theorem dx_at : val_main_v70 (F := Ideal) x0 x1 (ix1 r) = x0 (ix2 r (0 : Fin 5)) - x1 (ix2 r (0 : Fin 5)) := by
  rw [val_main_v70_apply, val_main_v67_apply, val_main_v66_apply, val_main_v0_apply, at_p0, val_main_v69_apply, val_main_v68_apply,
    val_main_v1_apply, at_q0]
  rfl
theorem dy_at : val_main_v75 (F := Ideal) x0 x1 (ix1 r) = x0 (ix2 r (1 : Fin 5)) - x1 (ix2 r (1 : Fin 5)) := by
  rw [val_main_v75_apply, val_main_v72_apply, val_main_v71_apply, val_main_v0_apply, at_p1, val_main_v74_apply, val_main_v73_apply,
    val_main_v1_apply, at_q1]
  rfl

/-- Row r of the last array is the term of row r. -/
theorem term_at : val_main_v119 (F := Ideal) x0 x1 x2 (ix1 r) = term x0 x1 x2 r := by
  unfold term boxLoss lossOf
  simp only [val_main_v119_apply, val_main_v118_apply, val_main_v117_apply, val_main_cst_15_apply, val_main_v116_apply,
    val_main_v115_apply, val_main_cst_14_apply, val_main_v114_apply, val_main_v113_apply, val_main_cst_13_apply,
    val_main_v112_apply, val_main_v111_apply, val_main_v110_apply, val_main_call2_v1_apply, val_main_call2_v0_apply,
    val_main_cst_12_apply, val_main_v109_apply, val_main_v108_apply, val_main_v107_apply, val_main_cst_11_apply,
    val_main_v106_apply, val_main_v105_apply, val_main_cst_10_apply, val_main_v104_apply, val_main_v103_apply,
    val_main_v102_apply, val_main_cst_9_apply, val_main_v101_apply, val_main_v100_apply, val_main_v99_apply,
    val_main_v98_apply, val_main_v97_apply, val_main_v96_apply, val_main_cst_8_apply, val_main_v95_apply, val_main_v94_apply,
    val_main_v93_apply, val_main_v92_apply, val_main_v91_apply, val_main_v90_apply, val_main_cst_7_apply, val_main_v89_apply,
    val_main_v88_apply, val_main_v87_apply, val_main_v86_apply, val_main_cst_6_apply, val_main_v85_apply, val_main_v84_apply,
    val_main_v83_apply, val_main_v82_apply, val_main_v81_apply, val_main_v80_apply, val_main_v79_apply, val_main_v78_apply,
    val_main_cst_5_apply, val_main_v77_apply, val_main_v76_apply, det0_at, det1_at, entA0_at, entB0_at, entD0_at, entA1_at,
    entB1_at, entD1_at, dx_at, dy_at, Ideal.mulf_def, Ideal.addf_def, Ideal.subf_def, Ideal.hostDivf_def, Ideal.maximumf_def,
    Ideal.hostUnary_sqrt_def, Ideal.hostUnary_log1p_def, Ideal.hostUnary_log_def, Ideal.ofBits_def]

/-- The reference's result, at its one index, is the weighted mean. -/
theorem result_eq (i : S_.Idx) : val_main_v122 (F := Ideal) x0 x1 x2 i = mean x0 x1 x2 := by
  rw [val_main_v122_apply, val_main_v121_apply, val_main_v120_apply, val_main_cst_18_apply, val_main_cst_17_apply,
    val_main_cst_16_apply, Cert.TileSums.sum_rank1]
  simp only [term_at]
  exact mean_eq _

end Cert.ReferenceIdeal.RefValue

end
-- ==== Proof.lean ====
/-
  The certificate: a box-regression loss kernel (per-box Gaussian covariances from width, height and angle, a
  Kullback–Leibler-type distance between the predicted and the target box, loss 1 - 1/(1 + log1p √distance), weighted
  and averaged over four million boxes) against its jnp reference, over the extended reals.

  The kernel walks the boxes in 1250 tiles of 3200 rows, adds each tile's weighted losses into a 1 × 1 accumulator and
  multiplies by the named constant 1/4000000 at the end; the reference forms the four million weighted losses, sums them,
  divides by four million and multiplies by one. Row by row the two compute the same expression (the reference squares
  before scaling by ¼, the kernel after: one number, multiplication being associative), a sum of extended reals does not
  depend on how it is grouped into tiles, and dividing by four million is multiplying by its exact reciprocal. No
  finiteness of the inputs is used.

  The three frames are the generated ones (the reference's is its generated run with the result dropped); the ledger's one
  entry is the named constant's statement; the value claim joins the kernel's run (KernelResult) and the reference's
  (RefValue) at the common value `mean`.
-/
import proofs.«120014_j70609262346548_2_alg».proof.Defs
import proofs.«120014_j70609262346548_2_alg».proof.Proof.Gen.Kernel
import proofs.«120014_j70609262346548_2_alg».proof.Proof.Gen.Kernel.Skeleton
import proofs.«120014_j70609262346548_2_alg».proof.Proof.Gen.Kernel.Launch
import proofs.«120014_j70609262346548_2_alg».proof.Proof.Gen.Kernel.Points
import proofs.«120014_j70609262346548_2_alg».proof.Proof.Gen.Kernel.Frame
import proofs.«120014_j70609262346548_2_alg».proof.Proof.Gen.KernelIdeal
import proofs.«120014_j70609262346548_2_alg».proof.Proof.Gen.KernelIdeal.Skeleton
import proofs.«120014_j70609262346548_2_alg».proof.Proof.Gen.KernelIdeal.Launch
import proofs.«120014_j70609262346548_2_alg».proof.Proof.Gen.KernelIdeal.Points
import proofs.«120014_j70609262346548_2_alg».proof.Proof.Gen.KernelIdeal.Frame
import proofs.«120014_j70609262346548_2_alg».proof.Proof.Gen.ReferenceIdeal
import proofs.«120014_j70609262346548_2_alg».proof.Proof.Gen.ReferenceIdeal.Run
import proofs.«120014_j70609262346548_2_alg».proof.Proof.Gen.ReferenceIdeal.Read
import proofs.«120014_j70609262346548_2_alg».proof.Proof.Gen.Pre_finite_inputs
import proofs.«120014_j70609262346548_2_alg».proof.Proof.KernelResult
import proofs.«120014_j70609262346548_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ledger's one entry: the table gives "inv_4000000" the value 1/4000000. -/
theorem preserves : Cert.preserves_Kernel_KernelIdeal :=
  IdealRules.named_const.statement Cert.KernelIdeal.κ "inv_4000000" .f32 0x348637BD#32 ((1 / 4000000 : ℝ) : EReal) rfl

/-- Both programs end with the weighted mean of the agreed arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Total.value m c, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v122_eq, (hagree c).1, (hagree c).2.1, (hagree c).2.2]
  funext i
  exact Cert.ReferenceIdeal.RefValue.result_eq _ _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
